-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg8 : FVec F S128x128 .f32) (main_arg9 : FVec F S128 .f32) (main_arg10 : FVec F S128x1 .f32) (main_arg11 : FVec F S1 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x1 .f32 := Host.absf main_arg10
  let main_cst_16 : FVec F S_ .f32 := constant S_ .f32 0x7F800000#32
  let main_v45 : FVec F S128x1 .f32 := broadcastInDim S128x1 ![] bcast_S_S128x1 main_cst_16
  let main_v46 : IVec S128x1 1 := cmpf .olt main_v44 main_v45
  let main_c_17 : IVec S_ 1 := constantI S_ 1 1#1
  let main_v47 : IVec S_ 1 := (fun x v => Host.reduce IntOp.andi x v reducesTo_S128x1_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg5 : FVec F S128 .f32) (main_arg6 : FVec F S128x128 .f32) (main_arg7 : FVec F S128 .f32) (main_arg8 : FVec F S128x128 .f32) (main_arg9 : FVec F S128 .f32) (main_arg10 : FVec F S128x1 .f32) (main_arg11 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x1 .f32) (main_arg11 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S1x128 : Shape := ⟨2, ![1, 128]⟩
abbrev S1x1 : Shape := ⟨2, ![1, 1]⟩
abbrev S_ : Shape := ⟨0, ![]⟩
abbrev S800000x1 : Shape := ⟨2, ![800000, 1]⟩
abbrev S800000x128 : Shape := ⟨2, ![800000, 128]⟩
abbrev S5000x128 : Shape := ⟨2, ![5000, 128]⟩
abbrev S50000x1 : Shape := ⟨2, ![50000, 1]⟩
abbrev S5000x1 : Shape := ⟨2, ![5000, 1]⟩

abbrev nBuf : Space → Nat
  | .hbm => 54
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x1, .f32⟩
  | .hbm, ⟨11, _⟩ => ⟨S1, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S128x128, .bf16⟩
  | .hbm, ⟨17, _⟩ => ⟨S128x128, .bf16⟩
  | .hbm, ⟨18, _⟩ => ⟨S1x128, .f32⟩
  | .hbm, ⟨19, _⟩ => ⟨S1x128, .f32⟩
  | .hbm, ⟨20, _⟩ => ⟨S128x128, .bf16⟩
  | .hbm, ⟨21, _⟩ => ⟨S128x128, .bf16⟩
  | .hbm, ⟨22, _⟩ => ⟨S1x128, .f32⟩
  | .hbm, ⟨23, _⟩ => ⟨S1x128, .f32⟩
  | .hbm, ⟨24, _⟩ => ⟨S128x1, .bf16⟩
  | .hbm, ⟨25, _⟩ => ⟨S1x1, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x128, .f32⟩
  | .hbm, ⟨35, _⟩ => ⟨S_, .f32⟩
  | .hbm, ⟨36, _⟩ => ⟨S50000x128, .f32⟩
  | .hbm, ⟨37, _⟩ => ⟨S800000x1, .i32⟩
  | .hbm, ⟨38, _⟩ => ⟨S50000x128, .f32⟩
  | .hbm, ⟨39, _⟩ => ⟨S50000x128, .f32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000x128, .f32⟩
  | .hbm, ⟨49, _⟩ => ⟨S_, .f32⟩
  | .hbm, ⟨50, _⟩ => ⟨S50000x128, .f32⟩
  | .hbm, ⟨51, _⟩ => ⟨S800000x1, .i32⟩
  | .hbm, ⟨52, _⟩ => ⟨S50000x128, .f32⟩
  | .hbm, ⟨53, _⟩ => ⟨S50000x1, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .bf16⟩
  | .local _ .vmem, ⟨5, _⟩ => ⟨S1x128, .f32⟩
  | .local _ .vmem, ⟨6, _⟩ => ⟨S128x128, .bf16⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .bf16⟩
  | .local _ .vmem, ⟨15, _⟩ => ⟨S1x128, .f32⟩
  | .local _ .vmem, ⟨16, _⟩ => ⟨S128x128, .bf16⟩
  | .local _ .vmem, ⟨17, _⟩ => ⟨S1x128, .f32⟩
  | .local _ .vmem, ⟨18, _⟩ => ⟨S128x1, .bf16⟩
  | .local _ .vmem, ⟨19, _⟩ => ⟨S1x1, .f32⟩
  | .local _ .vmem, ⟨20, _⟩ => ⟨S5000x1, .f32⟩
  | .local _ .vmem, ⟨21, _⟩ => ⟨S5000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_0 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_1 : Ref sig .tc := ⟨.hbm, 40, rfl⟩
abbrev main_v25 : Ref sig .tc := ⟨.hbm, 41, rfl⟩
abbrev main_v26 : Ref sig .tc := ⟨.hbm, 42, rfl⟩
abbrev main_c_2 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_3 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg8_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem8_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x1 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x1 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bitsLt_bf16_f32 : FTy.bits .bf16 < FTy.bits .f32
  shapeCasts_S128_S1x128 : S128.ShapeCasts S1x128
  shapeCasts_S1_S1x1 : S1.ShapeCasts S1x1
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .bf16 = 32 ∨ (Rect.block (s := S128x128) S128x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x1.size a ≤ S128x1.size a
  hwx1_6 : ∀ i : grid1.Coords, EltTy.bits .bf16 = 32 ∨ (Rect.block (s := S128x1) S128x1.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x1.size a ≤ S1x1.size a
  hwx1_7 : ∀ i : grid1.Coords, EltTy.bits .f32 = 32 ∨ (Rect.block (s := S1x1) S1x1.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x1.size a ≤ S50000x1.size a
  hwx1_8 : ∀ i : grid1.Coords, EltTy.bits .f32 = 32 ∨ (Rect.block (s := S50000x1) S5000x1.size (cc1_transform_8 i) (hinb1_8 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v24) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v9) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v11) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v12) S128x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v13) S1x1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v35) S5000x1.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S50000x1 : Shape := ⟨2, ![50000, 1]⟩
abbrev S1x1 : Shape := ⟨2, ![1, 1]⟩

abbrev nBuf : Space → Nat
  | .hbm => 84
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x1, .f32⟩
  | .hbm, ⟨11, _⟩ => ⟨S1, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x128, .f32⟩
  | .hbm, ⟨25, _⟩ => ⟨S_, .f32⟩
  | .hbm, ⟨26, _⟩ => ⟨S50000x128, .f32⟩
  | .hbm, ⟨27, _⟩ => ⟨S800000x1, .i32⟩
  | .hbm, ⟨28, _⟩ => ⟨S50000x128, .f32⟩
  | .hbm, ⟨29, _⟩ => ⟨S50000x128, .f32⟩
  | .hbm, ⟨30, _⟩ => ⟨S50000x128, .f32⟩
  | .hbm, ⟨31, _⟩ => ⟨S1x128, .f32⟩
  | .hbm, ⟨32, _⟩ => ⟨S50000x128, .f32⟩
  | .hbm, ⟨33, _⟩ => ⟨S50000x128, .f32⟩
  | .hbm, ⟨34, _⟩ => ⟨S_, .f32⟩
  | .hbm, ⟨35, _⟩ => ⟨S50000x128, .f32⟩
  | .hbm, ⟨36, _⟩ => ⟨S50000x128, .f32⟩
  | .hbm, ⟨37, _⟩ => ⟨S50000x128, .f32⟩
  | .hbm, ⟨38, _⟩ => ⟨S1x128, .f32⟩
  | .hbm, ⟨39, _⟩ => ⟨S50000x128, .f32⟩
  | .hbm, ⟨40, _⟩ => ⟨S50000x128, .f32⟩
  | .hbm, ⟨41, _⟩ => ⟨S_, .f32⟩
  | .hbm, ⟨42, _⟩ => ⟨S50000x128, .f32⟩
  | .hbm, ⟨43, _⟩ => ⟨S50000x128, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x128, .f32⟩
  | .hbm, ⟨53, _⟩ => ⟨S_, .f32⟩
  | .hbm, ⟨54, _⟩ => ⟨S50000x128, .f32⟩
  | .hbm, ⟨55, _⟩ => ⟨S800000x1, .i32⟩
  | .hbm, ⟨56, _⟩ => ⟨S50000x128, .f32⟩
  | .hbm, ⟨57, _⟩ => ⟨S50000x128, .f32⟩
  | .hbm, ⟨58, _⟩ => ⟨S50000x128, .f32⟩
  | .hbm, ⟨59, _⟩ => ⟨S1x128, .f32⟩
  | .hbm, ⟨60, _⟩ => ⟨S50000x128, .f32⟩
  | .hbm, ⟨61, _⟩ => ⟨S50000x128, .f32⟩
  | .hbm, ⟨62, _⟩ => ⟨S_, .f32⟩
  | .hbm, ⟨63, _⟩ => ⟨S50000x128, .f32⟩
  | .hbm, ⟨64, _⟩ => ⟨S50000x128, .f32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S50000x128, .f32⟩
  | .hbm, ⟨69, _⟩ => ⟨S_, .f32⟩
  | .hbm, ⟨70, _⟩ => ⟨S50000x128, .f32⟩
  | .hbm, ⟨71, _⟩ => ⟨S50000x128, .f32⟩
  | .hbm, ⟨72, _⟩ => ⟨S50000x1, .f32⟩
  | .hbm, ⟨73, _⟩ => ⟨S1x1, .f32⟩
  | .hbm, ⟨74, _⟩ => ⟨S50000x1, .f32⟩
  | .hbm, ⟨75, _⟩ => ⟨S50000x1, .f32⟩
  | .hbm, ⟨76, _⟩ => ⟨S50000x1, .f32⟩
  | .hbm, ⟨77, _⟩ => ⟨S50000x1, .f32⟩
  | .hbm, ⟨78, _⟩ => ⟨S_, .f32⟩
  | .hbm, ⟨79, _⟩ => ⟨S50000x1, .f32⟩
  | .hbm, ⟨80, _⟩ => ⟨S50000x1, .f32⟩
  | .hbm, ⟨81, _⟩ => ⟨S_, .f32⟩
  | .hbm, ⟨82, _⟩ => ⟨S50000x1, .f32⟩
  | .hbm, ⟨83, _⟩ => ⟨S50000x1, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_call0_cst : Ref sig .tc := ⟨.hbm, 34, rfl⟩
abbrev main_call0_v0 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_call1_cst : Ref sig .tc := ⟨.hbm, 41, rfl⟩
abbrev main_call1_v0 : Ref sig .tc := ⟨.hbm, 42, rfl⟩
abbrev main_v24 : Ref sig .tc := ⟨.hbm, 43, rfl⟩
abbrev main_c_1 : Ref sig .tc := ⟨.hbm, 44, rfl⟩
abbrev main_v25 : Ref sig .tc := ⟨.hbm, 45, rfl⟩
abbrev main_v26 : Ref sig .tc := ⟨.hbm, 46, rfl⟩
abbrev main_c_2 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_3 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_call2_cst : Ref sig .tc := ⟨.hbm, 62, rfl⟩
abbrev main_call2_v0 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_call3_cst : Ref sig .tc := ⟨.hbm, 69, rfl⟩
abbrev main_call3_v0 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_4 : Ref sig .tc := ⟨.hbm, 78, rfl⟩
abbrev main_v52 : Ref sig .tc := ⟨.hbm, 79, rfl⟩
abbrev main_v53 : Ref sig .tc := ⟨.hbm, 80, rfl⟩
abbrev main_cst_5 : Ref sig .tc := ⟨.hbm, 81, rfl⟩
abbrev main_v54 : Ref sig .tc := ⟨.hbm, 82, rfl⟩
abbrev main_v55 : Ref sig .tc := ⟨.hbm, 83, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  bcast_S_S50000x1 : S_.BroadcastsInDim S50000x1 (![] : Fin 0 → Fin S50000x1.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x1_S50000x1_1_0_0_1_n_n_wf : DotDims.WF S50000x128 S128x1 S50000x1 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.KernelRun.lean ====
/-
  The kernel program's run with its result named.

  The program is four segments: host operations, the first pallas_call, host operations, the second pallas_call. Its run
  from any memory ends — whatever the interleaving — with every buffer of the core at the contents the four segments
  leave one after the other; read at the result buffer this is what the second call's write-backs leave in its output
  array, and read at an argument it is the argument as launched.
-/
import proofs.«131484_j25202868093368_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with the result buffer at the last segment's contents and the arguments
    as launched. -/
theorem run_result : θ_run defs (onTc (τ := τ) (main (F := F))) ⟨m, fun _ => 0, ρ⟩ (fun r => ∀ c : Dev nD,
      r.2.mem ((c.tc : Thread nD τ).loc main_v35) = W4 m ρ c (Proc.devRef .tc main_v35)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v35 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c)⟩)

/-- The result buffer is the second call's output array, so the last segment's contents there are what that call's
    write-backs leave. -/
theorem result_arr (c : Dev nD) :
    W4 m ρ c (Proc.devRef .tc main_v35) = (dat1 (V3 m ρ) c).arrAt 8 cfg1.N := W4_arr m ρ c 8

end Cert.KernelIdeal.Run

end
-- ==== Proof.LibDenseBlock.lean ====
/-
  A weight matrix times a block, read at an index.

  A `tpu.matmul` of a `[K, N]` left operand with an `[N, Q]` right operand, contracting the left's second axis with the
  right's first, into a zero accumulator: over the extended reals entry `(k, q)` of the result is the plain sum
  `Σ n, l (k, n) * r (n, q)`.
-/
import Idealize.ShloMosaic.Lib.ValueIdx
import Idealize.ShloMosaic.PureOps.Ideal.Laws

noncomputable section

namespace Idealize.ShloMosaic.DenseBlock

open Idealize.ShloMosaic Idealize.ShloMosaic.ValueIdx

/-- The dimension numbers of `[K, N] · [N, Q] → [K, Q]`. -/
abbrev mmDims (K N Q : Nat)
    (wf : DotDims.WF ⟨2, ![K, N]⟩ ⟨2, ![N, Q]⟩ ⟨2, ![K, Q]⟩ [1] [0] [0] [1] [] []) :
    DotDims ⟨2, ![K, N]⟩ ⟨2, ![N, Q]⟩ ⟨2, ![K, Q]⟩ where
  lhsContracting := [1]
  rhsContracting := [0]
  lhsNonContracting := [0]
  rhsNonContracting := [1]
  lhsBatch := []
  rhsBatch := []
  wf := wf

section
variable {K N Q : Nat} (wf : DotDims.WF ⟨2, ![K, N]⟩ ⟨2, ![N, Q]⟩ ⟨2, ![K, Q]⟩ [1] [0] [0] [1] [] [])

/-- The left operand's row is the result's row. -/
theorem lhs_row (j : (⟨2, ![K, Q]⟩ : Shape).Idx) (c : (mmDims K N Q wf).contr.Idx) :
    ((mmDims K N Q wf).lhsIdx j c (0 : Fin 2)).val = (j 0).val := by
  unfold DotDims.lhsIdx
  rw [dif_neg (show ¬ (0 : Fin 2) ∈ (mmDims K N Q wf).lhsBatch from List.not_mem_nil),
    dif_pos (show (0 : Fin 2) ∈ (mmDims K N Q wf).lhsNonContracting from List.mem_singleton.mpr rfl)]
  rfl

/-- The left operand's column is the contraction position. -/
theorem lhs_col (j : (⟨2, ![K, Q]⟩ : Shape).Idx) (c : (mmDims K N Q wf).contr.Idx) :
    ((mmDims K N Q wf).lhsIdx j c (1 : Fin 2)).val = (c ⟨0, Nat.one_pos⟩).val :=
  (mmDims K N Q wf).lhsIdx_val_of_single rfl j c

/-- The right operand's row is the contraction position. -/
theorem rhs_row (j : (⟨2, ![K, Q]⟩ : Shape).Idx) (c : (mmDims K N Q wf).contr.Idx) :
    ((mmDims K N Q wf).rhsIdx j c (0 : Fin 2)).val = (c ⟨0, Nat.one_pos⟩).val :=
  (mmDims K N Q wf).rhsIdx_val_of_single rfl j c

/-- The right operand's column is the result's column. -/
theorem rhs_col (j : (⟨2, ![K, Q]⟩ : Shape).Idx) (c : (mmDims K N Q wf).contr.Idx) :
    ((mmDims K N Q wf).rhsIdx j c (1 : Fin 2)).val = (j 1).val := by
  unfold DotDims.rhsIdx
  rw [dif_neg (show ¬ (1 : Fin 2) ∈ (mmDims K N Q wf).rhsBatch from List.not_mem_nil),
    dif_pos (show (1 : Fin 2) ∈ (mmDims K N Q wf).rhsNonContracting from List.mem_singleton.mpr rfl)]
  rfl

/-- Entry `(k, q)` of the product into a zero accumulator is `Σ n, l (k, n) * r (n, q)`. -/
theorem matmul_zero_apply {φ₁ φ₂ : FTy} (l : FVec Ideal ⟨2, ![K, N]⟩ φ₁) (r : FVec Ideal ⟨2, ![N, Q]⟩ φ₂)
    (k : Fin K) (q : Fin Q) :
    FloatOps.matmul (mmDims K N Q wf) none l r (constant ⟨2, ![K, Q]⟩ .f32 0x00000000#32) (ix2 k q)
      = ∑ n : Fin N, l (ix2 k n) * r (ix2 n q) := by
  rw [Ideal.matmul_constant_zero_apply, ← Equiv.sum_comp (contrEquiv1 (mmDims K N Q wf) N rfl rfl).symm]
  refine Finset.sum_congr rfl fun n _ => ?_
  have hn := contrEquiv1_symm_val (mmDims K N Q wf) N rfl rfl n
  have el : (mmDims K N Q wf).lhsIdx (ix2 k q) ((contrEquiv1 (mmDims K N Q wf) N rfl rfl).symm n) = ix2 k n :=
    funext fun a => Fin.ext (by
      match a with
      | ⟨0, _⟩ => exact lhs_row wf _ _
      | ⟨1, _⟩ => exact (lhs_col wf _ _).trans hn)
  have er : (mmDims K N Q wf).rhsIdx (ix2 k q) ((contrEquiv1 (mmDims K N Q wf) N rfl rfl).symm n) = ix2 n q :=
    funext fun a => Fin.ext (by
      match a with
      | ⟨0, _⟩ => exact (rhs_row wf _ _).trans hn
      | ⟨1, _⟩ => exact rhs_col wf _ _)
  rw [el, er]

end

end Idealize.ShloMosaic.DenseBlock

end
-- ==== Proof.LibDenseLayer.lean ====
/-
  A dense layer inside a kernel, read at an index.

  A kernel computes a layer on a block of `K` rows as a product of the block `[K, N]` with the weights laid out
  `[N, Q]`, into a zero accumulator, plus the bias, one row `[1, Q]` laid along every row of the block; a clamp
  between two constants may follow.  Over the extended reals entry `(p, q)` of the result is
  `Σ n, X (p, n) * Wt (n, q) + bias (0, q)`, clamped.
-/
import proofs.«131484_j25202868093368_1_alg».proof.Proof.LibDenseBlock
import Idealize.ShloMosaic.Lib.ValueLayout

noncomputable section

namespace Idealize.ShloMosaic.DenseLayer

open Idealize.ShloMosaic Idealize.ShloMosaic.ValueIdx Idealize.ShloMosaic.DenseBlock

variable {K N Q : Nat} (wf : DotDims.WF ⟨2, ![K, N]⟩ ⟨2, ![N, Q]⟩ ⟨2, ![K, Q]⟩ [1] [0] [0] [1] [] [])

/-- Entry `(p, q)` of `X · Wt + bias`, the bias one row laid along every row. -/
theorem affine_apply {φ₁ φ₂ : FTy} (X : FVec Ideal ⟨2, ![K, N]⟩ φ₁) (Wt : FVec Ideal ⟨2, ![N, Q]⟩ φ₂)
    (bias : FVec Ideal ⟨2, ![1, Q]⟩ .f32) (hb : (⟨2, ![1, Q]⟩ : Shape).Broadcasts ⟨2, ![K, Q]⟩) (p : Fin K) (q : Fin Q) :
    addf (matmul (mmDims K N Q wf) none X Wt (constant ⟨2, ![K, Q]⟩ .f32 0x00000000#32))
        (broadcastTo ⟨2, ![K, Q]⟩ bias hb) (ix2 p q)
      = (∑ n : Fin N, X (ix2 p n) * Wt (ix2 n q)) + bias (ix2 (0 : Fin 1) q) := by
  show FloatOps.matmul (mmDims K N Q wf) none X Wt (constant ⟨2, ![K, Q]⟩ .f32 0x00000000#32) (ix2 p q)
      + broadcastTo ⟨2, ![K, Q]⟩ bias hb (ix2 p q) = _
  rw [matmul_zero_apply wf X Wt p q, broadcastTo_1b_ab_apply bias hb p q]

/-- The same, clamped from below by the splat of `lo` and then from above by the splat of `hi`. -/
theorem affine_clamped_apply {φ₁ φ₂ : FTy} (X : FVec Ideal ⟨2, ![K, N]⟩ φ₁) (Wt : FVec Ideal ⟨2, ![N, Q]⟩ φ₂)
    (bias : FVec Ideal ⟨2, ![1, Q]⟩ .f32) (hb : (⟨2, ![1, Q]⟩ : Shape).Broadcasts ⟨2, ![K, Q]⟩) (lo hi : BitVec 32)
    (p : Fin K) (q : Fin Q) :
    minimumf (broadcast ⟨2, ![K, Q]⟩ (Scalar.ofBits (F := Ideal) .f32 hi))
        (maximumf (broadcast ⟨2, ![K, Q]⟩ (Scalar.ofBits (F := Ideal) .f32 lo))
          (addf (matmul (mmDims K N Q wf) none X Wt (constant ⟨2, ![K, Q]⟩ .f32 0x00000000#32))
            (broadcastTo ⟨2, ![K, Q]⟩ bias hb))) (ix2 p q)
      = min (Ideal.ofBits .f32 hi) (max (Ideal.ofBits .f32 lo)
          ((∑ n : Fin N, X (ix2 p n) * Wt (ix2 n q)) + bias (ix2 (0 : Fin 1) q))) := by
  show min (Ideal.ofBits .f32 hi) (max (Ideal.ofBits .f32 lo)
      (addf (matmul (mmDims K N Q wf) none X Wt (constant ⟨2, ![K, Q]⟩ .f32 0x00000000#32))
        (broadcastTo ⟨2, ![K, Q]⟩ bias hb) (ix2 p q))) = _
  rw [affine_apply wf X Wt bias hb p q]

end Idealize.ShloMosaic.DenseLayer

end
-- ==== Proof.GinSpec.lean ====
/-
  A graph network of two aggregation rounds and a logistic read-out, entry by entry.

  Every node carries a row of 128 numbers. One round adds to each node's row the sum of its neighbours' rows (the
  aggregate, which the host computes by a gather and a scatter-add), and sends the result through two dense layers,
  each followed by a clamp at zero from below:

      ginConv x agg (r, q) = max (Σ k, max (Σ j, (x (r, j) + agg (r, j)) · Wa (j, k) + ba k, 0) · Wb (k, q) + bb q, 0).

  After two rounds a last dense layer with one output column and the logistic function give one number per node.

  Everything here is a function of ONE row of the node array: entry (r, q) of a round reads row r of x and of agg and
  nothing else. That is why the same numbers come out whether the rows are processed all at once or in blocks of
  consecutive rows (`ginConv_rows`, `readout_rows`).  Arrays of two axes are written as functions of their two
  coordinates; the sums are over the extended reals and no law beyond congruence is used.
-/
import Idealize.ShloMosaic.Lib.ValueIdx
import Idealize.ShloMosaic.PureOps.Ideal

noncomputable section

namespace Gin

open Idealize.ShloMosaic Idealize.ShloMosaic.ValueIdx

/-- The number zero, as a float pattern read over the extended reals. -/
abbrev zero : EReal := Ideal.ofBits .f32 0x00000000#32

/-- An array of two axes as a function of its row and its column. -/
def cur {R N : ℕ} {φ : FTy} (v : FVec Ideal ⟨2, ![R, N]⟩ φ) : Fin R → Fin N → EReal := fun r n => v (ix2 r n)

/-- A vector as a function of its one coordinate. -/
def cur1 {N : ℕ} {φ : FTy} (v : FVec Ideal ⟨1, ![N]⟩ φ) : Fin N → EReal := fun n => v (ix1 n)

/-- The one row of a `[1, N]` array as a function of the column. -/
def row0 {N : ℕ} {φ : FTy} (v : FVec Ideal ⟨2, ![1, N]⟩ φ) : Fin N → EReal := fun n => v (ix2 (0 : Fin 1) n)

/-- A function of row and column as an array of two axes. -/
def arr2 {R N : ℕ} (f : Fin R → Fin N → EReal) : FVec Ideal ⟨2, ![R, N]⟩ .f32 := fun i => f (i 0) (i 1)

/-- A function of the row as an array with a single column. -/
def col1 {R : ℕ} (f : Fin R → EReal) : FVec Ideal ⟨2, ![R, 1]⟩ .f32 := fun i => f (i 0)

theorem arr2_apply {R N : ℕ} (f : Fin R → Fin N → EReal) (i : (⟨2, ![R, N]⟩ : Shape).Idx) : arr2 f i = f (i 0) (i 1) := rfl

theorem col1_apply {R : ℕ} (f : Fin R → EReal) (i : (⟨2, ![R, 1]⟩ : Shape).Idx) : col1 f i = f (i 0) := rfl

theorem cur_arr2 {R N : ℕ} (f : Fin R → Fin N → EReal) : cur (arr2 f) = f := rfl

theorem cur_apply {R N : ℕ} {φ : FTy} (v : FVec Ideal ⟨2, ![R, N]⟩ φ) (r : Fin R) (n : Fin N) :
    cur v r n = v (ix2 r n) := rfl

/-- A dense layer clamped at zero from below: entry `(r, q)` of `max (h · W + b, 0)`. -/
def dense {R N Q : ℕ} (h : Fin R → Fin N → EReal) (W : Fin N → Fin Q → EReal) (b : Fin Q → EReal) :
    Fin R → Fin Q → EReal :=
  fun r q => max ((∑ n : Fin N, h r n * W n q) + b q) zero

/-- A dense layer reads one row of its input. -/
theorem dense_rows {R R' N Q : ℕ} (h : Fin R → Fin N → EReal) (h' : Fin R' → Fin N → EReal)
    (W : Fin N → Fin Q → EReal) (b : Fin Q → EReal) (r : Fin R) (r' : Fin R') (hr : ∀ n, h r n = h' r' n) (q : Fin Q) :
    dense h W b r q = dense h' W b r' q := by
  unfold dense
  simp only [hr]

/-- One round: the node rows plus their aggregates, through two clamped dense layers. -/
def ginConv {R : ℕ} (x agg : Fin R → Fin 128 → EReal) (Wa : Fin 128 → Fin 128 → EReal) (ba : Fin 128 → EReal)
    (Wb : Fin 128 → Fin 128 → EReal) (bb : Fin 128 → EReal) : Fin R → Fin 128 → EReal :=
  dense (dense (fun r n => x r n + agg r n) Wa ba) Wb bb

/-- A round reads one row of the nodes and of the aggregates. -/
theorem ginConv_rows {R R' : ℕ} (x agg : Fin R → Fin 128 → EReal) (x' agg' : Fin R' → Fin 128 → EReal)
    (Wa : Fin 128 → Fin 128 → EReal) (ba : Fin 128 → EReal) (Wb : Fin 128 → Fin 128 → EReal) (bb : Fin 128 → EReal)
    (r : Fin R) (r' : Fin R') (hx : ∀ n, x r n = x' r' n) (ha : ∀ n, agg r n = agg' r' n) (q : Fin 128) :
    ginConv x agg Wa ba Wb bb r q = ginConv x' agg' Wa ba Wb bb r' q := by
  unfold ginConv
  refine dense_rows _ _ Wb bb r r' (fun k => ?_) q
  refine dense_rows _ _ Wa ba r r' (fun n => ?_) k
  show x r n + agg r n = x' r' n + agg' r' n
  rw [hx, ha]

/-- The read-out: a second round, one more dense layer with a single output column, and the logistic function. -/
def readout {R : ℕ} (h agg : Fin R → Fin 128 → EReal) (Wa : Fin 128 → Fin 128 → EReal) (ba : Fin 128 → EReal)
    (Wb : Fin 128 → Fin 128 → EReal) (bb : Fin 128 → EReal) (Wf : Fin 128 → Fin 1 → EReal) (bf : EReal) :
    Fin R → EReal :=
  fun r => Ideal.logistic ((∑ n : Fin 128, ginConv h agg Wa ba Wb bb r n * Wf n 0) + bf)

/-- The read-out of a node reads that node's row and its aggregate's. -/
theorem readout_rows {R R' : ℕ} (h agg : Fin R → Fin 128 → EReal) (h' agg' : Fin R' → Fin 128 → EReal)
    (Wa : Fin 128 → Fin 128 → EReal) (ba : Fin 128 → EReal) (Wb : Fin 128 → Fin 128 → EReal) (bb : Fin 128 → EReal)
    (Wf : Fin 128 → Fin 1 → EReal) (bf : EReal)
    (r : Fin R) (r' : Fin R') (hx : ∀ n, h r n = h' r' n) (ha : ∀ n, agg r n = agg' r' n) :
    readout h agg Wa ba Wb bb Wf bf r = readout h' agg' Wa ba Wb bb Wf bf r' := by
  unfold readout
  simp only [ginConv_rows h agg h' agg' Wa ba Wb bb r r' hx ha]

/-- The node array after one round, as an array: the weights as stored (any float format), the biases as one row each. -/
def roundArr {R : ℕ} {φ : FTy} (X A : FVec Ideal ⟨2, ![R, 128]⟩ .f32) (Wa : FVec Ideal ⟨2, ![128, 128]⟩ φ)
    (ba : FVec Ideal ⟨2, ![1, 128]⟩ .f32) (Wb : FVec Ideal ⟨2, ![128, 128]⟩ φ) (bb : FVec Ideal ⟨2, ![1, 128]⟩ .f32) :
    FVec Ideal ⟨2, ![R, 128]⟩ .f32 :=
  arr2 (ginConv (cur X) (cur A) (cur Wa) (row0 ba) (cur Wb) (row0 bb))

/-- The network's result, as an array with one column. -/
def readoutArr {R : ℕ} {φ : FTy} (H A : FVec Ideal ⟨2, ![R, 128]⟩ .f32) (Wa : FVec Ideal ⟨2, ![128, 128]⟩ φ)
    (ba : FVec Ideal ⟨2, ![1, 128]⟩ .f32) (Wb : FVec Ideal ⟨2, ![128, 128]⟩ φ) (bb : FVec Ideal ⟨2, ![1, 128]⟩ .f32)
    (Wf : FVec Ideal ⟨2, ![128, 1]⟩ φ) (bf : FVec Ideal ⟨2, ![1, 1]⟩ .f32) : FVec Ideal ⟨2, ![R, 1]⟩ .f32 :=
  col1 (readout (cur H) (cur A) (cur Wa) (row0 ba) (cur Wb) (row0 bb) (cur Wf) (bf (ix2 (0 : Fin 1) (0 : Fin 1))))

end Gin

end
-- ==== Proof.KernelBody.lean ====
/-
  What the two kernel bodies compute on one block of 5000 consecutive node rows, entry by entry.

  Over the extended reals a change of float format is the identity and a matrix product into a zero accumulator is the
  plain sum of products, so the first body's stored value is one round of the network on the block's rows — the block of
  node rows plus the block of aggregates, through two dense layers each clamped at zero — and the second body's is the
  read-out of the block's rows: a round, one more dense layer with a single output column, and the logistic function.
-/
import proofs.«131484_j25202868093368_1_alg».proof.Proof.Gen.KernelIdeal.Skeleton
import proofs.«131484_j25202868093368_1_alg».proof.Proof.LibDenseLayer
import proofs.«131484_j25202868093368_1_alg».proof.Proof.GinSpec
import Idealize.ShloMosaic.Lib.Pipeline.Value

noncomputable section

namespace Cert.KernelIdeal.Body

open Cert.KernelIdeal Cert.KernelIdeal.Gen Idealize.ShloMosaic Idealize.ShloMosaic.ValueIdx Gin

/-- A dense layer as the bodies spell it: a product into zero, the bias row laid along the rows, a clamp at zero. -/
def clamped {φ₁ φ₂ : FTy} (X : FVec Ideal S5000x128 φ₁) (Wt : FVec Ideal S128x128 φ₂) (bias : FVec Ideal S1x128 .f32) :
    FVec Ideal S5000x128 .f32 :=
  maximumf (addf (matmul dot_S5000x128_S128x128_S5000x128_1_0_0_1_n_n none X Wt (constant S5000x128 .f32 0x00000000#32))
      (broadcastTo S5000x128 bias broadcasts_S1x128_S5000x128))
    (broadcast S5000x128 (Scalar.ofBits (F := Ideal) .f32 0x00000000#32))

/-- Entry `(p, q)` of such a layer is the clamped sum of products plus the bias. -/
theorem clamped_apply {φ₁ φ₂ : FTy} (X : FVec Ideal S5000x128 φ₁) (Wt : FVec Ideal S128x128 φ₂)
    (bias : FVec Ideal S1x128 .f32) (p : Fin 5000) (q : Fin 128) :
    clamped X Wt bias (ix2 p q) = dense (cur X) (cur Wt) (row0 bias) p q := by
  exact congrArg (fun z => max z zero) (DenseLayer.affine_apply (K := 5000) (N := 128) (Q := 128)
    dot_S5000x128_S128x128_S5000x128_1_0_0_1_n_n.wf X Wt bias broadcasts_S1x128_S5000x128 p q)

/-- As a function of row and column, such a layer is the dense layer of the specification. -/
theorem cur_clamped {φ₁ φ₂ : FTy} (X : FVec Ideal S5000x128 φ₁) (Wt : FVec Ideal S128x128 φ₂)
    (bias : FVec Ideal S1x128 .f32) :
    cur (clamped X Wt bias) = dense (cur X) (cur Wt) (row0 bias) :=
  funext fun p => funext fun q => clamped_apply X Wt bias p q

/-- The first body's stored value is two such layers on the block of node rows plus the block of aggregates. -/
theorem pay0_eq (x0 x1 : FVec Ideal S5000x128 .f32) (w1 : FVec Ideal S128x128 .bf16) (b1 : FVec Ideal S1x128 .f32)
    (w2 : FVec Ideal S128x128 .bf16) (b2 : FVec Ideal S1x128 .f32) :
    k0_pay1 (F := Ideal) x0 x1 w1 b1 w2 b2 = clamped (clamped (addf x0 x1) w1 b1) w2 b2 := by
  unfold k0_pay1 clamped
  simp only [shapeCast_self]
  rfl

/-- Entry `(p, q)` of the first body's stored value: one round on the block's rows. -/
theorem pay0_apply (x0 x1 : FVec Ideal S5000x128 .f32) (w1 : FVec Ideal S128x128 .bf16) (b1 : FVec Ideal S1x128 .f32)
    (w2 : FVec Ideal S128x128 .bf16) (b2 : FVec Ideal S1x128 .f32) (p : Fin 5000) (q : Fin 128) :
    k0_pay1 (F := Ideal) x0 x1 w1 b1 w2 b2 (ix2 p q)
      = ginConv (cur x0) (cur x1) (cur w1) (row0 b1) (cur w2) (row0 b2) p q := by
  rw [pay0_eq, clamped_apply, cur_clamped]
  rfl

/-- The second body's stored value: two such layers, a product with the one output column, its bias, the logistic. -/
theorem pay1_eq (x0 x1 : FVec Ideal S5000x128 .f32) (w1 : FVec Ideal S128x128 .bf16) (b1 : FVec Ideal S1x128 .f32)
    (w2 : FVec Ideal S128x128 .bf16) (b2 : FVec Ideal S1x128 .f32) (wf : FVec Ideal S128x1 .bf16) (bf : FVec Ideal S1x1 .f32) :
    k1_pay1 (F := Ideal) x0 x1 w1 b1 w2 b2 wf bf
      = logistic (addf (matmul dot_S5000x128_S128x1_S5000x1_1_0_0_1_n_n none (clamped (clamped (addf x0 x1) w1 b1) w2 b2) wf
          (constant S5000x1 .f32 0x00000000#32)) (broadcastTo S5000x1 bf broadcasts_S1x1_S5000x1)) := by
  unfold k1_pay1 clamped
  simp only [shapeCast_self]
  rfl

/-- Entry `(p, 0)` of the second body's stored value: the read-out of row `p` of the block. -/
theorem pay1_apply (x0 x1 : FVec Ideal S5000x128 .f32) (w1 : FVec Ideal S128x128 .bf16) (b1 : FVec Ideal S1x128 .f32)
    (w2 : FVec Ideal S128x128 .bf16) (b2 : FVec Ideal S1x128 .f32) (wf : FVec Ideal S128x1 .bf16) (bf : FVec Ideal S1x1 .f32)
    (p : Fin 5000) :
    k1_pay1 (F := Ideal) x0 x1 w1 b1 w2 b2 wf bf (ix2 p (0 : Fin 1))
      = readout (cur x0) (cur x1) (cur w1) (row0 b1) (cur w2) (row0 b2) (cur wf) (bf (ix2 (0 : Fin 1) (0 : Fin 1))) p := by
  rw [pay1_eq]
  refine (congrArg Ideal.logistic (DenseLayer.affine_apply (K := 5000) (N := 128) (Q := 1)
    dot_S5000x128_S128x1_S5000x1_1_0_0_1_n_n.wf (clamped (clamped (addf x0 x1) w1 b1) w2 b2) wf bf
    broadcasts_S1x1_S5000x1 p (0 : Fin 1))).trans ?_
  unfold readout ginConv
  simp only [← cur_apply, cur_clamped]
  rfl

end Cert.KernelIdeal.Body

end
-- ==== Proof.KernelBlocks.lean ====
/-
  From blocks to arrays: what the two pallas_calls leave in their output arrays.

  Each call walks ten grid points; point t works on rows 5000·t … 5000·t + 4999 of the node array and of the aggregate
  array, reads the weights and biases whole at every point, and writes back rows 5000·t … 5000·t + 4999 of its output.
  A round (and the read-out) of a row reads that row only, so what point t writes back is block t of ONE whole-array
  function of the arrays the call finds; the ten blocks tile the output, so the output array ends holding that function.
  Stated for any contents `V` of the core's buffers at the call's entry.
-/
import proofs.«131484_j25202868093368_1_alg».proof.Proof.Gen.KernelIdeal.Frame
import proofs.«131484_j25202868093368_1_alg».proof.Proof.KernelBody
import Idealize.ShloMosaic.Lib.Pipeline.Value

set_option maxRecDepth 16384

noncomputable section

namespace Cert.KernelIdeal.Blocks

open Cert.KernelIdeal Cert.KernelIdeal.Gen Cert.KernelIdeal.Body
open Idealize.ShloMosaic Idealize.ShloMosaic.TcCoe Idealize.ShloMosaic.ValueIdx Idealize.SL.Sem Gin
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## One block against the whole arrays -/

/-- A round on a block of rows is the round on the whole arrays at the block's place: if row `p` of the two blocks is
    row `r` of the two arrays, entry `(p, q)` of the body's value is entry `(r, q)` of the array. -/
theorem round_block (x0 x1 : FVec Ideal S5000x128 .f32) (w1 : FVec Ideal S128x128 .bf16) (b1 : FVec Ideal S1x128 .f32)
    (w2 : FVec Ideal S128x128 .bf16) (b2 : FVec Ideal S1x128 .f32) (X A : FVec Ideal S50000x128 .f32)
    (p : Fin 5000) (q : Fin 128) (r : Fin 50000)
    (hx : ∀ n : Fin 128, x0 (ix2 p n) = X (ix2 r n)) (ha : ∀ n : Fin 128, x1 (ix2 p n) = A (ix2 r n)) :
    k0_pay1 (F := Ideal) x0 x1 w1 b1 w2 b2 (ix2 p q) = roundArr (R := 50000) X A w1 b1 w2 b2 (ix2 r q) := by
  rw [pay0_apply]
  exact ginConv_rows _ _ _ _ _ _ _ _ p r hx ha q

/-- The read-out on a block of rows is the read-out on the whole arrays at the block's place. -/
theorem readout_block (x0 x1 : FVec Ideal S5000x128 .f32) (w1 : FVec Ideal S128x128 .bf16) (b1 : FVec Ideal S1x128 .f32)
    (w2 : FVec Ideal S128x128 .bf16) (b2 : FVec Ideal S1x128 .f32) (wf : FVec Ideal S128x1 .bf16) (bf : FVec Ideal S1x1 .f32)
    (H A : FVec Ideal S50000x128 .f32) (p : Fin 5000) (r : Fin 50000)
    (hx : ∀ n : Fin 128, x0 (ix2 p n) = H (ix2 r n)) (ha : ∀ n : Fin 128, x1 (ix2 p n) = A (ix2 r n)) :
    k1_pay1 (F := Ideal) x0 x1 w1 b1 w2 b2 wf bf (ix2 p (0 : Fin 1))
      = readoutArr (R := 50000) H A w1 b1 w2 b2 wf bf (ix2 r (0 : Fin 1)) := by
  rw [pay1_apply]
  exact readout_rows _ _ _ _ _ _ _ _ _ _ p r hx ha

/-! ## The first call -/

/-- The printed index maps over the grid: the row windows sit at block row `t`, the weights and biases at block zero. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- WHAT POINT `t` OF THE FIRST CALL WRITES BACK is block `t` of one round of the arrays the call finds. -/
theorem flushed0_eq (c : Dev nD) (t : Fin cfg0.N) :
    (dat0 V c).flushed 6 t = ((cfg0.win 6).blk t).view.read (Elt Ideal)
      (roundArr (R := 50000) (φ := .bf16) (V c main_arg0) (V c main_v23) (V c main_v4) (V c main_v6) (V c main_v5) (V c main_v7)) := by
  show (cfg0.win 6).cut (grid0.coords t) ((dat0 V c).after 6 t) = _
  rw [after0_6]
  unfold out0_6
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51, e60, e61⟩ := idx0 t
  have hw1 : iblk0 V c 2 t = V c main_v4 := by
    funext y
    show V c main_v4 (((cfg0.win 2).blk t).view.emb y) = V c main_v4 y
    refine congrArg _ (funext fun a => Fin.ext ?_)
    match a with
    | ⟨0, _⟩ => show win0_2.index t (0 : Fin 2) * 128 + 1 * (y 0).val = (y 0).val; omega
    | ⟨1, _⟩ => show win0_2.index t (1 : Fin 2) * 128 + 1 * (y 1).val = (y 1).val; omega
  have hb1 : iblk0 V c 3 t = V c main_v6 := by
    funext y
    show V c main_v6 (((cfg0.win 3).blk t).view.emb y) = V c main_v6 y
    refine congrArg _ (funext fun a => Fin.ext ?_)
    match a with
    | ⟨0, _⟩ => show win0_3.index t (0 : Fin 2) * 1 + 1 * (y 0).val = (y 0).val; omega
    | ⟨1, _⟩ => show win0_3.index t (1 : Fin 2) * 128 + 1 * (y 1).val = (y 1).val; omega
  have hw2 : iblk0 V c 4 t = V c main_v5 := by
    funext y
    show V c main_v5 (((cfg0.win 4).blk t).view.emb y) = V c main_v5 y
    refine congrArg _ (funext fun a => Fin.ext ?_)
    match a with
    | ⟨0, _⟩ => show win0_4.index t (0 : Fin 2) * 128 + 1 * (y 0).val = (y 0).val; omega
    | ⟨1, _⟩ => show win0_4.index t (1 : Fin 2) * 128 + 1 * (y 1).val = (y 1).val; omega
  have hb2 : iblk0 V c 5 t = V c main_v7 := by
    funext y
    show V c main_v7 (((cfg0.win 5).blk t).view.emb y) = V c main_v7 y
    refine congrArg _ (funext fun a => Fin.ext ?_)
    match a with
    | ⟨0, _⟩ => show win0_5.index t (0 : Fin 2) * 1 + 1 * (y 0).val = (y 0).val; omega
    | ⟨1, _⟩ => show win0_5.index t (1 : Fin 2) * 128 + 1 * (y 1).val = (y 1).val; omega
  rw [hw1, hb1, hw2, hb2]
  funext j
  obtain ⟨p, q, rfl⟩ : ∃ (p : Fin 5000) (q : Fin 128), j = ix2 p q := ⟨j 0, j 1, eq_ix2 j⟩
  have hN : cfg0.N = 10 := N_0
  have ht : t.val < 10 := hN ▸ t.isLt
  have hemb : ((cfg0.win 6).blk t).view.emb (ix2 p q) = ix2 (⟨t.val * 5000 + p.val, by omega⟩ : Fin 50000) q :=
    funext fun a => Fin.ext (by
      match a with
      | ⟨0, _⟩ => show win0_6.index t (0 : Fin 2) * 5000 + 1 * p.val = t.val * 5000 + p.val; omega
      | ⟨1, _⟩ => show win0_6.index t (1 : Fin 2) * 128 + 1 * q.val = q.val; omega)
  rw [View.read_apply, hemb]
  refine round_block (iblk0 V c 0 t) (iblk0 V c 1 t) (V c main_v4) (V c main_v6) (V c main_v5) (V c main_v7)
    (V c main_arg0) (V c main_v23) p q _ (fun n => ?_) (fun n => ?_)
  · show V c main_arg0 (((cfg0.win 0).blk t).view.emb (ix2 p n)) = V c main_arg0 (ix2 (⟨t.val * 5000 + p.val, by omega⟩ : Fin 50000) n)
    refine congrArg _ (funext fun a => Fin.ext ?_)
    match a with
    | ⟨0, _⟩ => show win0_0.index t (0 : Fin 2) * 5000 + 1 * p.val = t.val * 5000 + p.val; omega
    | ⟨1, _⟩ => show win0_0.index t (1 : Fin 2) * 128 + 1 * n.val = n.val; omega
  · show V c main_v23 (((cfg0.win 1).blk t).view.emb (ix2 p n)) = V c main_v23 (ix2 (⟨t.val * 5000 + p.val, by omega⟩ : Fin 50000) n)
    refine congrArg _ (funext fun a => Fin.ext ?_)
    match a with
    | ⟨0, _⟩ => show win0_1.index t (0 : Fin 2) * 5000 + 1 * p.val = t.val * 5000 + p.val; omega
    | ⟨1, _⟩ => show win0_1.index t (1 : Fin 2) * 128 + 1 * n.val = n.val; omega

/-- An index of the first call's output is in point `t`'s block iff its row is in the block's row range. -/
theorem mem_blk0 (t : Fin cfg0.N) (i : S50000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v24).slice (win0_6.rect t)).set ↔ _
  rw [View.set_slice_whole, Rect.mem_set_unit]
  exact Iff.rfl

/-- THE FIRST CALL'S OUTPUT ARRAY after its ten points: one round of the arrays the call finds. -/
theorem final0 (c : Dev nD) :
    (dat0 V c).arrAt 6 cfg0.N
      = roundArr (R := 50000) (φ := .bf16) (V c main_arg0) (V c main_v23) (V c main_v4) (V c main_v6) (V c main_v5) (V c main_v7) :=
  (dat0 V c).arrAt_eq_of_cover 6 _ (fun t _ => flushed0_eq V c t) fun i => by
    have hi0 : (i 0).val < 50000 := (i 0).isLt
    have hi1 : (i 1).val < 128 := (i 1).isLt
    have hN : cfg0.N = 10 := N_0
    refine ⟨⟨(i 0).val / 5000, by rw [hN]; omega⟩, flush0_6 _, ?_⟩
    rw [mem_blk0]
    obtain ⟨-, -, -, -, -, -, -, -, -, -, -, -, e60, e61⟩ := idx0 ⟨(i 0).val / 5000, by rw [hN]; omega⟩
    intro a
    match a with
    | ⟨0, _⟩ =>
      show win0_6.index _ (0 : Fin 2) * 5000 ≤ (i 0).val ∧ (i 0).val < win0_6.index _ (0 : Fin 2) * 5000 + 5000
      rw [e60]; show (i 0).val / 5000 * 5000 ≤ (i 0).val ∧ (i 0).val < (i 0).val / 5000 * 5000 + 5000; omega
    | ⟨1, _⟩ =>
      show win0_6.index _ (1 : Fin 2) * 128 ≤ (i 1).val ∧ (i 1).val < win0_6.index _ (1 : Fin 2) * 128 + 128
      rw [e61]; omega

/-! ## The second call -/

/-- The printed index maps over the grid: the row windows and the output sit at block row `t`, the rest at block zero. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

/-- WHAT POINT `t` OF THE SECOND CALL WRITES BACK is block `t` of the read-out of the arrays the call finds. -/
theorem flushed1_eq (c : Dev nD) (t : Fin cfg1.N) :
    (dat1 V c).flushed 8 t = ((cfg1.win 8).blk t).view.read (Elt Ideal)
      (readoutArr (R := 50000) (φ := .bf16) (V c main_v24) (V c main_v34) (V c main_v8) (V c main_v10) (V c main_v9)
        (V c main_v11) (V c main_v12) (V c main_v13)) := by
  show (cfg1.win 8).cut (grid1.coords t) ((dat1 V c).after 8 t) = _
  rw [after1_8]
  unfold out1_8
  rw [View.canon_unit_zero hz]
  simp only [View.ld_unit_zero (S := S5000x128) hz, View.ld_unit_zero (S := S128x128) hz, View.ld_unit_zero (S := S1x128) hz,
    View.ld_unit_zero (S := S128x1) hz, View.ld_unit_zero (S := S1x1) hz]
  obtain ⟨e00, e01, e10, e11, e20, e21, e30, e31, e40, e41, e50, e51, e60, e61, e70, e71, e80, e81⟩ := idx1 t
  have hw1 : iblk1 V c 2 t = V c main_v8 := by
    funext y
    show V c main_v8 (((cfg1.win 2).blk t).view.emb y) = V c main_v8 y
    refine congrArg _ (funext fun a => Fin.ext ?_)
    match a with
    | ⟨0, _⟩ => show win1_2.index t (0 : Fin 2) * 128 + 1 * (y 0).val = (y 0).val; omega
    | ⟨1, _⟩ => show win1_2.index t (1 : Fin 2) * 128 + 1 * (y 1).val = (y 1).val; omega
  have hb1 : iblk1 V c 3 t = V c main_v10 := by
    funext y
    show V c main_v10 (((cfg1.win 3).blk t).view.emb y) = V c main_v10 y
    refine congrArg _ (funext fun a => Fin.ext ?_)
    match a with
    | ⟨0, _⟩ => show win1_3.index t (0 : Fin 2) * 1 + 1 * (y 0).val = (y 0).val; omega
    | ⟨1, _⟩ => show win1_3.index t (1 : Fin 2) * 128 + 1 * (y 1).val = (y 1).val; omega
  have hw2 : iblk1 V c 4 t = V c main_v9 := by
    funext y
    show V c main_v9 (((cfg1.win 4).blk t).view.emb y) = V c main_v9 y
    refine congrArg _ (funext fun a => Fin.ext ?_)
    match a with
    | ⟨0, _⟩ => show win1_4.index t (0 : Fin 2) * 128 + 1 * (y 0).val = (y 0).val; omega
    | ⟨1, _⟩ => show win1_4.index t (1 : Fin 2) * 128 + 1 * (y 1).val = (y 1).val; omega
  have hb2 : iblk1 V c 5 t = V c main_v11 := by
    funext y
    show V c main_v11 (((cfg1.win 5).blk t).view.emb y) = V c main_v11 y
    refine congrArg _ (funext fun a => Fin.ext ?_)
    match a with
    | ⟨0, _⟩ => show win1_5.index t (0 : Fin 2) * 1 + 1 * (y 0).val = (y 0).val; omega
    | ⟨1, _⟩ => show win1_5.index t (1 : Fin 2) * 128 + 1 * (y 1).val = (y 1).val; omega
  have hwf : iblk1 V c 6 t = V c main_v12 := by
    funext y
    show V c main_v12 (((cfg1.win 6).blk t).view.emb y) = V c main_v12 y
    refine congrArg _ (funext fun a => Fin.ext ?_)
    match a with
    | ⟨0, _⟩ => show win1_6.index t (0 : Fin 2) * 128 + 1 * (y 0).val = (y 0).val; omega
    | ⟨1, _⟩ => show win1_6.index t (1 : Fin 2) * 1 + 1 * (y 1).val = (y 1).val; omega
  have hbf : iblk1 V c 7 t = V c main_v13 := by
    funext y
    show V c main_v13 (((cfg1.win 7).blk t).view.emb y) = V c main_v13 y
    refine congrArg _ (funext fun a => Fin.ext ?_)
    match a with
    | ⟨0, _⟩ => show win1_7.index t (0 : Fin 2) * 1 + 1 * (y 0).val = (y 0).val; omega
    | ⟨1, _⟩ => show win1_7.index t (1 : Fin 2) * 1 + 1 * (y 1).val = (y 1).val; omega
  rw [hw1, hb1, hw2, hb2, hwf, hbf]
  funext j
  obtain ⟨p, q, rfl⟩ : ∃ (p : Fin 5000) (q : Fin 1), j = ix2 p q := ⟨j 0, j 1, eq_ix2 j⟩
  obtain rfl : q = 0 := Subsingleton.elim _ _
  have hN : cfg1.N = 10 := N_1
  have ht : t.val < 10 := hN ▸ t.isLt
  have hemb : ((cfg1.win 8).blk t).view.emb (ix2 p (0 : Fin 1)) = ix2 (⟨t.val * 5000 + p.val, by omega⟩ : Fin 50000) (0 : Fin 1) :=
    funext fun a => Fin.ext (by
      match a with
      | ⟨0, _⟩ => show win1_8.index t (0 : Fin 2) * 5000 + 1 * p.val = t.val * 5000 + p.val; omega
      | ⟨1, _⟩ => show win1_8.index t (1 : Fin 2) * 1 + 1 * 0 = 0; omega)
  rw [View.read_apply, hemb]
  refine readout_block (iblk1 V c 0 t) (iblk1 V c 1 t) (V c main_v8) (V c main_v10) (V c main_v9) (V c main_v11)
    (V c main_v12) (V c main_v13) (V c main_v24) (V c main_v34) p _ (fun n => ?_) (fun n => ?_)
  · show V c main_v24 (((cfg1.win 0).blk t).view.emb (ix2 p n)) = V c main_v24 (ix2 (⟨t.val * 5000 + p.val, by omega⟩ : Fin 50000) n)
    refine congrArg _ (funext fun a => Fin.ext ?_)
    match a with
    | ⟨0, _⟩ => show win1_0.index t (0 : Fin 2) * 5000 + 1 * p.val = t.val * 5000 + p.val; omega
    | ⟨1, _⟩ => show win1_0.index t (1 : Fin 2) * 128 + 1 * n.val = n.val; omega
  · show V c main_v34 (((cfg1.win 1).blk t).view.emb (ix2 p n)) = V c main_v34 (ix2 (⟨t.val * 5000 + p.val, by omega⟩ : Fin 50000) n)
    refine congrArg _ (funext fun a => Fin.ext ?_)
    match a with
    | ⟨0, _⟩ => show win1_1.index t (0 : Fin 2) * 5000 + 1 * p.val = t.val * 5000 + p.val; omega
    | ⟨1, _⟩ => show win1_1.index t (1 : Fin 2) * 128 + 1 * n.val = n.val; omega

/-- An index of the second call's output is in point `t`'s block iff its row is in the block's row range. -/
theorem mem_blk1 (t : Fin cfg1.N) (i : S50000x1.Idx) :
    i ∈ ((cfg1.win 8).blk t).view.set ↔ ∀ a : Fin 2, win1_8.index t a * S5000x1.size a ≤ (i a).val ∧ (i a).val < win1_8.index t a * S5000x1.size a + S5000x1.size a := by
  show i ∈ ((View.whole main_v35).slice (win1_8.rect t)).set ↔ _
  rw [View.set_slice_whole, Rect.mem_set_unit]
  exact Iff.rfl

/-- THE SECOND CALL'S OUTPUT ARRAY after its ten points: the read-out of the arrays the call finds. -/
theorem final1 (c : Dev nD) :
    (dat1 V c).arrAt 8 cfg1.N
      = readoutArr (R := 50000) (φ := .bf16) (V c main_v24) (V c main_v34) (V c main_v8) (V c main_v10) (V c main_v9)
          (V c main_v11) (V c main_v12) (V c main_v13) :=
  (dat1 V c).arrAt_eq_of_cover 8 _ (fun t _ => flushed1_eq V c t) fun i => by
    have hi0 : (i 0).val < 50000 := (i 0).isLt
    have hi1 : (i 1).val < 1 := (i 1).isLt
    have hN : cfg1.N = 10 := N_1
    refine ⟨⟨(i 0).val / 5000, by rw [hN]; omega⟩, flush1_8 _, ?_⟩
    rw [mem_blk1]
    obtain ⟨-, -, -, -, -, -, -, -, -, -, -, -, -, -, -, -, e80, e81⟩ := idx1 ⟨(i 0).val / 5000, by rw [hN]; omega⟩
    intro a
    match a with
    | ⟨0, _⟩ =>
      show win1_8.index _ (0 : Fin 2) * 5000 ≤ (i 0).val ∧ (i 0).val < win1_8.index _ (0 : Fin 2) * 5000 + 5000
      rw [e80]; show (i 0).val / 5000 * 5000 ≤ (i 0).val ∧ (i 0).val < (i 0).val / 5000 * 5000 + 5000; omega
    | ⟨1, _⟩ =>
      show win1_8.index _ (1 : Fin 2) * 1 ≤ (i 1).val ∧ (i 1).val < win1_8.index _ (1 : Fin 2) * 1 + 1
      rw [e81]; omega

end Cert.KernelIdeal.Blocks

end
-- ==== Proof.Net.lean ====
/-
  The network as one function of the twelve argument arrays.

  The aggregate of a node array `h` along the edge list `E` (two rows: sources and destinations) is, as both programs
  compute it on the host, a gather of the source rows of `h` — a negative source index first wrapped by the number of
  nodes — followed by a scatter-add of the gathered rows into a zero array at the destination rows. It is carried here
  as ONE function of `h` and `E` and never opened: both programs apply it to node arrays that are shown equal.

  The network: a round on the input nodes and their aggregate, then the read-out on that round's result and ITS
  aggregate, with the weights as matrices and the biases as vectors.
-/
import proofs.«131484_j25202868093368_1_alg».proof.Proof.Gen.KernelIdeal
import proofs.«131484_j25202868093368_1_alg».proof.Proof.GinSpec

noncomputable section

namespace Cert.KernelIdeal.Net

open Cert.KernelIdeal Cert.KernelIdeal.Gen Idealize.ShloMosaic Idealize.ShloMosaic.ValueIdx Gin

variable {F : FTy → Type} [FloatOps F]

/-- Row `k` of the edge list as a vector of 800000 words (`k` = 0 the sources, 1 the destinations). -/
def sources (E : IVec S2x800000 32) : IVec S800000 32 :=
  shapeCast _ (extractStridedSlice S1x800000 ![0, 0] E slices_S2x800000_S1x800000_0_0) shapeCasts_S1x800000_S800000

def dests (E : IVec S2x800000 32) : IVec S800000 32 :=
  shapeCast _ (extractStridedSlice S1x800000 ![1, 0] E slices_S2x800000_S1x800000_1_0) shapeCasts_S1x800000_S800000

/-- The sources, a negative one wrapped by the number of nodes, as a column. -/
def sourceCol (E : IVec S2x800000 32) : IVec S800000x1 32 :=
  broadcastInDim S800000x1 ![0] bcast_S800000_S800000x1_0
    (select (cmpi .slt (sources E) (broadcastInDim S800000 ![] bcast_S_S800000 (constantI S_ 32 0#32)))
      (addi (sources E) (broadcastInDim S800000 ![] bcast_S_S800000 (constantI S_ 32 50000#32))) (sources E))

/-- The destinations as a column. -/
def destCol (E : IVec S2x800000 32) : IVec S800000x1 32 :=
  broadcastInDim S800000x1 ![0] bcast_S800000_S800000x1_0 (dests E)

/-- The aggregate: the source rows gathered, then added into a zero array at the destination rows. -/
def aggregate (h : FVec F S50000x128 .f32) (E : IVec S2x800000 32) : FVec F S50000x128 .f32 :=
  Host.scatterAdd scatter_S50000x128_S800000x1_S800000x128_1_0_0_1
    (broadcastInDim S50000x128 ![] bcast_S_S50000x128 (constant S_ .f32 0x00000000#32)) (destCol E)
    (Host.gather gather_S50000x128_S800000x1_S800000x128_1_0_n_n_0_1_1128 h (sourceCol E))

/-- The node array after the first round. -/
def firstRound (x : FVec Ideal S50000x128 .f32) (E : IVec S2x800000 32) (Wa : FVec Ideal S128x128 .f32)
    (ba : FVec Ideal S128 .f32) (Wb : FVec Ideal S128x128 .f32) (bb : FVec Ideal S128 .f32) : FVec Ideal S50000x128 .f32 :=
  arr2 (ginConv (cur x) (cur (aggregate x E)) (cur Wa) (cur1 ba) (cur Wb) (cur1 bb))

/-- The network's result: one number per node. -/
def net (x : FVec Ideal S50000x128 .f32) (E : IVec S2x800000 32) (W1a : FVec Ideal S128x128 .f32)
    (b1a : FVec Ideal S128 .f32) (W1b : FVec Ideal S128x128 .f32) (b1b : FVec Ideal S128 .f32)
    (W2a : FVec Ideal S128x128 .f32) (b2a : FVec Ideal S128 .f32) (W2b : FVec Ideal S128x128 .f32)
    (b2b : FVec Ideal S128 .f32) (Wfc : FVec Ideal S128x1 .f32) (bfc : FVec Ideal S1 .f32) : FVec Ideal S50000x1 .f32 :=
  col1 (readout (cur (firstRound x E W1a b1a W1b b1b)) (cur (aggregate (firstRound x E W1a b1a W1b b1b) E))
    (cur W2a) (cur1 b2a) (cur W2b) (cur1 b2b) (cur Wfc) (bfc (ix1 (0 : Fin 1))))

end Cert.KernelIdeal.Net

end
-- ==== Proof.KernelHost.lean ====
/-
  What the two pallas_calls find in their operand arrays.

  The host operations before the first call leave: the node array as launched, its aggregate along the edge list, each
  weight matrix changed to the narrower float format (over the extended reals: unchanged) and each bias vector reshaped
  to one row. The first call writes its output array and nothing else; the host operations between the calls compute
  the aggregate of that output along the same edge list, and touch no weight, bias or edge buffer. So the second call
  finds the first call's output, that output's aggregate, and the second set of weights and biases.
-/
import proofs.«131484_j25202868093368_1_alg».proof.Proof.Gen.KernelIdeal.Frame
import proofs.«131484_j25202868093368_1_alg».proof.Proof.Net
import Idealize.ShloMosaic.Lib.StableHlo.Run

set_option maxRecDepth 16384

noncomputable section

namespace Cert.KernelIdeal.HostSide

open Cert.KernelIdeal Cert.KernelIdeal.Gen Cert.KernelIdeal.Net
open Idealize.ShloMosaic Idealize.ShloMosaic.TcCoe Idealize.SL.Sem Idealize.ShloMosaic.StableHlo

variable (m : (ℓ : Loc nD τ sig) → Buf (Elt Ideal) ℓ) (ρ : Dev nD → PrngReg)

/-! ## At the first call's entry -/

/-- The node array is as launched. -/
theorem entry0_nodes (c : Dev nD) : @Eq (FVec Ideal S50000x128 .f32) (V1 m ρ c main_arg0) ((m ((c : Thread nD τ).loc main_arg0) : FVec Ideal S50000x128 .f32)) := by
  show StableHlo.after hostOps0 (W0 m ρ c) (Proc.devRef .tc main_arg0) = _
  after_results_simp <;> rfl

/-- The aggregate of the node array along the edge list. -/
theorem entry0_agg (c : Dev nD) : @Eq (FVec Ideal S50000x128 .f32) (V1 m ρ c main_v23) (aggregate (F := Ideal) (m ((c : Thread nD τ).loc main_arg0) : FVec Ideal S50000x128 .f32) (m ((c : Thread nD τ).loc main_arg1) : IVec S2x800000 32)) := by
  show StableHlo.after hostOps0 (W0 m ρ c) (Proc.devRef .tc main_v23) = _
  after_results_simp <;> rfl

/-- The first round's weights and biases. -/
theorem entry0_Wa (c : Dev nD) : @Eq (FVec Ideal S128x128 .bf16) (V1 m ρ c main_v4) (truncf .bf16 (m ((c : Thread nD τ).loc main_arg2) : FVec Ideal S128x128 .f32) bitsLt_bf16_f32) := by
  show StableHlo.after hostOps0 (W0 m ρ c) (Proc.devRef .tc main_v4) = _
  after_results_simp <;> rfl

theorem entry0_ba (c : Dev nD) : @Eq (FVec Ideal S1x128 .f32) (V1 m ρ c main_v6) (shapeCast S1x128 (m ((c : Thread nD τ).loc main_arg3) : FVec Ideal S128 .f32) shapeCasts_S128_S1x128) := by
  show StableHlo.after hostOps0 (W0 m ρ c) (Proc.devRef .tc main_v6) = _
  after_results_simp <;> rfl

theorem entry0_Wb (c : Dev nD) : @Eq (FVec Ideal S128x128 .bf16) (V1 m ρ c main_v5) (truncf .bf16 (m ((c : Thread nD τ).loc main_arg4) : FVec Ideal S128x128 .f32) bitsLt_bf16_f32) := by
  show StableHlo.after hostOps0 (W0 m ρ c) (Proc.devRef .tc main_v5) = _
  after_results_simp <;> rfl

theorem entry0_bb (c : Dev nD) : @Eq (FVec Ideal S1x128 .f32) (V1 m ρ c main_v7) (shapeCast S1x128 (m ((c : Thread nD τ).loc main_arg5) : FVec Ideal S128 .f32) shapeCasts_S128_S1x128) := by
  show StableHlo.after hostOps0 (W0 m ρ c) (Proc.devRef .tc main_v7) = _
  after_results_simp <;> rfl

/-! ## Between the calls -/

/-- The edge sources and destinations are untouched by the first call. -/
theorem mid_sources (c : Dev nD) : @Eq (IVec S800000 32) (W2 m ρ c (Proc.devRef .tc main_v1)) (sources (m ((c : Thread nD τ).loc main_arg1) : IVec S2x800000 32)) := by
  rw [W2_of_ne m ρ c main_v1 (by decide)]
  show StableHlo.after hostOps0 (W0 m ρ c) (Proc.devRef .tc main_v1) = _
  after_results_simp <;> rfl

theorem mid_dests (c : Dev nD) : @Eq (IVec S800000 32) (W2 m ρ c (Proc.devRef .tc main_v3)) (dests (m ((c : Thread nD τ).loc main_arg1) : IVec S2x800000 32)) := by
  rw [W2_of_ne m ρ c main_v3 (by decide)]
  show StableHlo.after hostOps0 (W0 m ρ c) (Proc.devRef .tc main_v3) = _
  after_results_simp <;> rfl

/-! ## At the second call's entry -/

/-- The node array is what the first call's write-backs left. -/
theorem entry1_nodes (c : Dev nD) : V3 m ρ c main_v24 = (dat0 (V1 m ρ) c).arrAt 6 cfg0.N := by
  show StableHlo.after hostOps1 (W2 m ρ c) (Proc.devRef .tc main_v24) = _
  after_results_simp
  exact W2_arr m ρ c 6

/-- Its aggregate along the same edge list. -/
theorem entry1_agg (c : Dev nD) :
    @Eq (FVec Ideal S50000x128 .f32) (V3 m ρ c main_v34)
      (aggregate (F := Ideal) (V3 m ρ c main_v24) (m ((c : Thread nD τ).loc main_arg1) : IVec S2x800000 32)) := by
  show StableHlo.after hostOps1 (W2 m ρ c) (Proc.devRef .tc main_v34)
    = aggregate (F := Ideal) (StableHlo.after hostOps1 (W2 m ρ c) (Proc.devRef .tc main_v24)) _
  after_results_simp
  rw [mid_sources m ρ c, mid_dests m ρ c]
  rfl

/-- The second round's weights and biases, and the read-out's. -/
theorem entry1_Wa (c : Dev nD) : @Eq (FVec Ideal S128x128 .bf16) (V3 m ρ c main_v8) (truncf .bf16 (m ((c : Thread nD τ).loc main_arg6) : FVec Ideal S128x128 .f32) bitsLt_bf16_f32) := by
  show StableHlo.after hostOps1 (W2 m ρ c) (Proc.devRef .tc main_v8) = _
  after_results_simp
  rw [W2_of_ne m ρ c main_v8 (by decide)]
  show StableHlo.after hostOps0 (W0 m ρ c) (Proc.devRef .tc main_v8) = _
  after_results_simp <;> rfl

theorem entry1_ba (c : Dev nD) : @Eq (FVec Ideal S1x128 .f32) (V3 m ρ c main_v10) (shapeCast S1x128 (m ((c : Thread nD τ).loc main_arg7) : FVec Ideal S128 .f32) shapeCasts_S128_S1x128) := by
  show StableHlo.after hostOps1 (W2 m ρ c) (Proc.devRef .tc main_v10) = _
  after_results_simp
  rw [W2_of_ne m ρ c main_v10 (by decide)]
  show StableHlo.after hostOps0 (W0 m ρ c) (Proc.devRef .tc main_v10) = _
  after_results_simp <;> rfl

theorem entry1_Wb (c : Dev nD) : @Eq (FVec Ideal S128x128 .bf16) (V3 m ρ c main_v9) (truncf .bf16 (m ((c : Thread nD τ).loc main_arg8) : FVec Ideal S128x128 .f32) bitsLt_bf16_f32) := by
  show StableHlo.after hostOps1 (W2 m ρ c) (Proc.devRef .tc main_v9) = _
  after_results_simp
  rw [W2_of_ne m ρ c main_v9 (by decide)]
  show StableHlo.after hostOps0 (W0 m ρ c) (Proc.devRef .tc main_v9) = _
  after_results_simp <;> rfl

theorem entry1_bb (c : Dev nD) : @Eq (FVec Ideal S1x128 .f32) (V3 m ρ c main_v11) (shapeCast S1x128 (m ((c : Thread nD τ).loc main_arg9) : FVec Ideal S128 .f32) shapeCasts_S128_S1x128) := by
  show StableHlo.after hostOps1 (W2 m ρ c) (Proc.devRef .tc main_v11) = _
  after_results_simp
  rw [W2_of_ne m ρ c main_v11 (by decide)]
  show StableHlo.after hostOps0 (W0 m ρ c) (Proc.devRef .tc main_v11) = _
  after_results_simp <;> rfl

theorem entry1_Wf (c : Dev nD) : @Eq (FVec Ideal S128x1 .bf16) (V3 m ρ c main_v12) (truncf .bf16 (m ((c : Thread nD τ).loc main_arg10) : FVec Ideal S128x1 .f32) bitsLt_bf16_f32) := by
  show StableHlo.after hostOps1 (W2 m ρ c) (Proc.devRef .tc main_v12) = _
  after_results_simp
  rw [W2_of_ne m ρ c main_v12 (by decide)]
  show StableHlo.after hostOps0 (W0 m ρ c) (Proc.devRef .tc main_v12) = _
  after_results_simp <;> rfl

theorem entry1_bf (c : Dev nD) : @Eq (FVec Ideal S1x1 .f32) (V3 m ρ c main_v13) (shapeCast S1x1 (m ((c : Thread nD τ).loc main_arg11) : FVec Ideal S1 .f32) shapeCasts_S1_S1x1) := by
  show StableHlo.after hostOps1 (W2 m ρ c) (Proc.devRef .tc main_v13) = _
  after_results_simp
  rw [W2_of_ne m ρ c main_v13 (by decide)]
  show StableHlo.after hostOps0 (W0 m ρ c) (Proc.devRef .tc main_v13) = _
  after_results_simp <;> rfl

end Cert.KernelIdeal.HostSide

end
-- ==== Proof.KernelValue.lean ====
/-
  The kernel program computes the network.

  The first pallas_call finds the nodes as launched, their aggregate, and the first round's weights and biases (the
  weights in the narrower format, which over the extended reals reads the same; each bias as one row), so its output
  array is the node array after the first round. The second call finds that array, its aggregate, and the remaining
  weights and biases, so its output array — the program's result — is the network of the twelve arguments.
-/
import proofs.«131484_j25202868093368_1_alg».proof.Proof.KernelRun
import proofs.«131484_j25202868093368_1_alg».proof.Proof.KernelBlocks
import proofs.«131484_j25202868093368_1_alg».proof.Proof.KernelHost
import Idealize.ShloMosaic.Lib.ValueLayout

set_option maxRecDepth 16384

noncomputable section

namespace Cert.KernelIdeal.Result

open Cert.KernelIdeal Cert.KernelIdeal.Gen Cert.KernelIdeal.Net Cert.KernelIdeal.HostSide
open Idealize.ShloMosaic Idealize.ShloMosaic.TcCoe Idealize.ShloMosaic.ValueIdx Idealize.SL.Sem Gin

variable (m : (ℓ : Loc nD τ sig) → Buf (Elt Ideal) ℓ) (ρ : Dev nD → PrngReg)

/-- A bias vector reshaped to one row reads, along that row, as the vector. -/
theorem row0_cast (b : FVec Ideal S128 .f32) (h : S128.ShapeCasts S1x128) : row0 (shapeCast S1x128 b h) = cur1 b :=
  funext fun n => shapeCast_a_1a_apply b h (0 : Fin 1) n

/-- THE FIRST CALL'S OUTPUT ARRAY is the node array after the first round. -/
theorem hidden_arr (c : Dev nD) :
    ((dat0 (V1 m ρ) c).arrAt 6 cfg0.N : FVec Ideal S50000x128 .f32)
      = firstRound (m ((c : Thread nD τ).loc main_arg0) : FVec Ideal S50000x128 .f32)
          (m ((c : Thread nD τ).loc main_arg1) : IVec S2x800000 32)
          (m ((c : Thread nD τ).loc main_arg2) : FVec Ideal S128x128 .f32)
          (m ((c : Thread nD τ).loc main_arg3) : FVec Ideal S128 .f32)
          (m ((c : Thread nD τ).loc main_arg4) : FVec Ideal S128x128 .f32)
          (m ((c : Thread nD τ).loc main_arg5) : FVec Ideal S128 .f32) := by
  rw [Blocks.final0 (V1 m ρ) c, entry0_nodes m ρ c, entry0_agg m ρ c, entry0_Wa m ρ c, entry0_ba m ρ c,
    entry0_Wb m ρ c, entry0_bb m ρ c]
  unfold roundArr firstRound
  rw [row0_cast, row0_cast]
  rfl

/-- THE SECOND CALL'S OUTPUT ARRAY — the program's result — is the network of the twelve arguments. -/
theorem result_eq (c : Dev nD) :
    (W4 m ρ c (Proc.devRef .tc main_v35) : FVec Ideal S50000x1 .f32)
      = net (m ((c : Thread nD τ).loc main_arg0) : FVec Ideal S50000x128 .f32)
          (m ((c : Thread nD τ).loc main_arg1) : IVec S2x800000 32)
          (m ((c : Thread nD τ).loc main_arg2) : FVec Ideal S128x128 .f32)
          (m ((c : Thread nD τ).loc main_arg3) : FVec Ideal S128 .f32)
          (m ((c : Thread nD τ).loc main_arg4) : FVec Ideal S128x128 .f32)
          (m ((c : Thread nD τ).loc main_arg5) : FVec Ideal S128 .f32)
          (m ((c : Thread nD τ).loc main_arg6) : FVec Ideal S128x128 .f32)
          (m ((c : Thread nD τ).loc main_arg7) : FVec Ideal S128 .f32)
          (m ((c : Thread nD τ).loc main_arg8) : FVec Ideal S128x128 .f32)
          (m ((c : Thread nD τ).loc main_arg9) : FVec Ideal S128 .f32)
          (m ((c : Thread nD τ).loc main_arg10) : FVec Ideal S128x1 .f32)
          (m ((c : Thread nD τ).loc main_arg11) : FVec Ideal S1 .f32) := by
  rw [Run.result_arr m ρ c, Blocks.final1 (V3 m ρ) c, entry1_agg m ρ c, entry1_nodes m ρ c, hidden_arr m ρ c,
    entry1_Wa m ρ c, entry1_ba m ρ c, entry1_Wb m ρ c, entry1_bb m ρ c, entry1_Wf m ρ c, entry1_bf m ρ c]
  unfold readoutArr net
  rw [row0_cast, row0_cast, shapeCast_a_1a_apply]
  rfl

/-- The run, read: every weakly fair execution ends with the result buffer at the network of the arguments and the
    arguments unchanged. -/
theorem run : θ_run defs (onTc (τ := τ) (main (F := Ideal))) ⟨m, fun _ => 0, ρ⟩ (fun r => ∀ c : Dev nD,
      r.2.mem ((c.tc : Thread nD τ).loc main_v35)
        = net (m ((c : Thread nD τ).loc main_arg0) : FVec Ideal S50000x128 .f32)
            (m ((c : Thread nD τ).loc main_arg1) : IVec S2x800000 32)
            (m ((c : Thread nD τ).loc main_arg2) : FVec Ideal S128x128 .f32)
            (m ((c : Thread nD τ).loc main_arg3) : FVec Ideal S128 .f32)
            (m ((c : Thread nD τ).loc main_arg4) : FVec Ideal S128x128 .f32)
            (m ((c : Thread nD τ).loc main_arg5) : FVec Ideal S128 .f32)
            (m ((c : Thread nD τ).loc main_arg6) : FVec Ideal S128x128 .f32)
            (m ((c : Thread nD τ).loc main_arg7) : FVec Ideal S128 .f32)
            (m ((c : Thread nD τ).loc main_arg8) : FVec Ideal S128x128 .f32)
            (m ((c : Thread nD τ).loc main_arg9) : FVec Ideal S128 .f32)
            (m ((c : Thread nD τ).loc main_arg10) : FVec Ideal S128x1 .f32)
            (m ((c : Thread nD τ).loc main_arg11) : FVec Ideal S1 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans (result_eq m ρ c), (h c).2⟩) (Run.run_result m ρ)

end Cert.KernelIdeal.Result

end
-- ==== Proof.LibDenseHost.lean ====
/-
  The host's matrix product, read at an index.

  A `dot_general` of a `[K, N]` left operand with an `[N, Q]` right operand, contracting the left's second axis with
  the right's first: over the extended reals entry `(k, q)` of the result is the plain sum `Σ n, l (k, n) * r (n, q)`,
  whatever the schedule — the same sum a matrix unit accumulates into zero, so a product computed block of rows by
  block of rows and a product computed whole agree entry by entry.
-/
import proofs.«131484_j25202868093368_1_alg».proof.Proof.LibDenseBlock

noncomputable section

namespace Idealize.ShloMosaic.DenseBlock

open Idealize.ShloMosaic Idealize.ShloMosaic.ValueIdx

variable {K N Q : Nat} (wf : DotDims.WF ⟨2, ![K, N]⟩ ⟨2, ![N, Q]⟩ ⟨2, ![K, Q]⟩ [1] [0] [0] [1] [] [])

/-- Entry `(k, q)` of the host's product is `Σ n, l (k, n) * r (n, q)`. -/
theorem dotGeneral_apply_ix2 {φ₁ φ₂ : FTy} (sched : HostSchedule) (l : FVec Ideal ⟨2, ![K, N]⟩ φ₁)
    (r : FVec Ideal ⟨2, ![N, Q]⟩ φ₂) (k : Fin K) (q : Fin Q) :
    FloatOps.dotGeneral (mmDims K N Q wf) none sched l r (ix2 k q) = ∑ n : Fin N, l (ix2 k n) * r (ix2 n q) := by
  rw [Ideal.dotGeneral_apply, ← Equiv.sum_comp (contrEquiv1 (mmDims K N Q wf) N rfl rfl).symm]
  refine Finset.sum_congr rfl fun n _ => ?_
  have hn := contrEquiv1_symm_val (mmDims K N Q wf) N rfl rfl n
  have el : (mmDims K N Q wf).lhsIdx (ix2 k q) ((contrEquiv1 (mmDims K N Q wf) N rfl rfl).symm n) = ix2 k n :=
    funext fun a => Fin.ext (by
      match a with
      | ⟨0, _⟩ => exact lhs_row wf _ _
      | ⟨1, _⟩ => exact (lhs_col wf _ _).trans hn)
  have er : (mmDims K N Q wf).rhsIdx (ix2 k q) ((contrEquiv1 (mmDims K N Q wf) N rfl rfl).symm n) = ix2 n q :=
    funext fun a => Fin.ext (by
      match a with
      | ⟨0, _⟩ => exact (rhs_row wf _ _).trans hn
      | ⟨1, _⟩ => exact rhs_col wf _ _)
  rw [el, er]

end Idealize.ShloMosaic.DenseBlock

end
-- ==== Proof.LibHostLayer.lean ====
/-
  A dense layer on the host, read at an index.

  `x @ W + b` for a batch x of E rows of N numbers, a weight matrix W laid out [N, Q] and a bias vector b of Q numbers
  lowers to a `dot_general` contracting x's second axis with W's first, and b broadcast first to one row [1, Q] and
  then along the E rows.  Over the extended reals entry (e, q) of the result is  Σ n, x (e, n) * W (n, q) + b q.
-/
import proofs.«131484_j25202868093368_1_alg».proof.Proof.LibDenseHost
import Idealize.ShloMosaic.Lib.Pipeline.Value

set_option maxRecDepth 16384

noncomputable section

open scoped BigOperators

namespace Idealize.ShloMosaic.HostLayer

open Idealize.ShloMosaic Idealize.ShloMosaic.ValueIdx Idealize.ShloMosaic.DenseBlock

/-- A bias vector broadcast to one row and then along the rows, at (e, q). -/
theorem bias_apply {E Q : ℕ} (b : FVec Ideal ⟨1, ![Q]⟩ .f32)
    (h1 : (⟨1, ![Q]⟩ : Shape).BroadcastsInDim ⟨2, ![1, Q]⟩ ![1])
    (h2 : (⟨2, ![1, Q]⟩ : Shape).BroadcastsInDim ⟨2, ![E, Q]⟩ ![0, 1]) (e : Fin E) (q : Fin Q) :
    broadcastInDim ⟨2, ![E, Q]⟩ ![0, 1] h2 (broadcastInDim ⟨2, ![1, Q]⟩ ![1] h1 b) (ix2 e q) = b (ix1 q) := by
  have hq := q.isLt
  rw [broadcastInDim_apply ![0, 1] h2 _ (ix2 e q) (ix2 (0 : Fin 1) q) (fun a => by
      match a with
      | ⟨0, _⟩ => show (0 : ℕ) = if (1 : ℕ) = 1 then 0 else e.val; simp
      | ⟨1, _⟩ => show q.val = if Q = 1 then 0 else q.val; split <;> omega),
    broadcastInDim_apply ![1] h1 _ (ix2 (0 : Fin 1) q) (ix1 q) (fun a => by
      match a with
      | ⟨0, _⟩ => show q.val = if Q = 1 then 0 else q.val; split <;> omega)]

/-- One layer on the host: a product and a broadcast bias, at (e, q). -/
theorem layer_apply {E N Q : ℕ} (wf : DotDims.WF ⟨2, ![E, N]⟩ ⟨2, ![N, Q]⟩ ⟨2, ![E, Q]⟩ [1] [0] [0] [1] [] [])
    (X : FVec Ideal ⟨2, ![E, N]⟩ .f32) (W : FVec Ideal ⟨2, ![N, Q]⟩ .f32) (b : FVec Ideal ⟨1, ![Q]⟩ .f32)
    (h1 : (⟨1, ![Q]⟩ : Shape).BroadcastsInDim ⟨2, ![1, Q]⟩ ![1])
    (h2 : (⟨2, ![1, Q]⟩ : Shape).BroadcastsInDim ⟨2, ![E, Q]⟩ ![0, 1]) (e : Fin E) (q : Fin Q) :
    addf (Host.dotGeneral (mmDims E N Q wf) none X W)
        (broadcastInDim ⟨2, ![E, Q]⟩ ![0, 1] h2 (broadcastInDim ⟨2, ![1, Q]⟩ ![1] h1 b)) (ix2 e q)
      = (∑ n : Fin N, X (ix2 e n) * W (ix2 n q)) + b (ix1 q) := by
  show FloatOps.dotGeneral (mmDims E N Q wf) none _ X W (ix2 e q)
      + broadcastInDim ⟨2, ![E, Q]⟩ ![0, 1] h2 (broadcastInDim ⟨2, ![1, Q]⟩ ![1] h1 b) (ix2 e q) = _
  rw [dotGeneral_apply_ix2, bias_apply]

end Idealize.ShloMosaic.HostLayer

end
-- ==== Proof.RefValue.lean ====
/-
  The reference program computes the network.

  Stage by stage: the reference's aggregate is the shared aggregate function; each of its dense layers — a host matrix
  product, the bias vector broadcast to one row and then along the rows, a clamp at zero — is the specification's dense
  layer entry by entry (over the extended reals the host's product is the plain sum of products); two of them on the
  nodes plus their aggregate are one round; and its last lines, 1 / (1 + e^(−z)) spelt with negate, exponential, add
  and divide, are the logistic function of the last layer's sum.
-/
import proofs.«131484_j25202868093368_1_alg».proof.Proof.Gen.ReferenceIdeal.Read
import proofs.«131484_j25202868093368_1_alg».proof.Proof.Net
import proofs.«131484_j25202868093368_1_alg».proof.Proof.LibHostLayer
import Idealize.ShloMosaic.Lib.IdealHost

set_option maxRecDepth 16384

noncomputable section

namespace Cert.ReferenceIdeal.RefValue

open Cert.ReferenceIdeal Cert.ReferenceIdeal.Gen Idealize.ShloMosaic Idealize.ShloMosaic.ValueIdx Gin

/-- A dense layer as the reference spells it: the host's product, the bias broadcast twice, the clamp at zero. -/
def hostDense (X : FVec Ideal S50000x128 .f32) (W : FVec Ideal S128x128 .f32) (b : FVec Ideal S128 .f32) :
    FVec Ideal S50000x128 .f32 :=
  maximumf (addf (Host.dotGeneral dot_S50000x128_S128x128_S50000x128_1_0_0_1_n_n none X W)
      (broadcastInDim S50000x128 ![0, 1] bcast_S1x128_S50000x128_0_1 (broadcastInDim S1x128 ![1] bcast_S128_S1x128_1 b)))
    (broadcastInDim S50000x128 ![] bcast_S_S50000x128 (constant S_ .f32 0x00000000#32))

/-- It is the specification's dense layer. -/
theorem hostDense_eq (X : FVec Ideal S50000x128 .f32) (W : FVec Ideal S128x128 .f32) (b : FVec Ideal S128 .f32) :
    hostDense X W b = arr2 (dense (cur X) (cur W) (cur1 b)) := by
  funext i
  obtain ⟨r, q, rfl⟩ : ∃ (r : Fin 50000) (q : Fin 128), i = ix2 r q := ⟨i 0, i 1, eq_ix2 i⟩
  exact congrArg (fun z => max z zero) (HostLayer.layer_apply (E := 50000) (N := 128) (Q := 128)
    dot_S50000x128_S128x128_S50000x128_1_0_0_1_n_n.wf X W b bcast_S128_S1x128_1 bcast_S1x128_S50000x128_0_1 r q)

/-- Two such layers on the nodes plus their aggregate are one round. -/
theorem hostRound_eq (X A : FVec Ideal S50000x128 .f32) (Wa : FVec Ideal S128x128 .f32) (ba : FVec Ideal S128 .f32)
    (Wb : FVec Ideal S128x128 .f32) (bb : FVec Ideal S128 .f32) :
    hostDense (hostDense (addf X A) Wa ba) Wb bb = arr2 (ginConv (cur X) (cur A) (cur Wa) (cur1 ba) (cur Wb) (cur1 bb)) := by
  rw [hostDense_eq, hostDense_eq]
  rfl

/-- The reference's aggregate of the input nodes is the shared aggregate function. -/
theorem agg1_eq (x0 : FVec Ideal S50000x128 .f32) (x1 : IVec S2x800000 32) :
    (Read.val_main_v13 (F := Ideal) x0 x1 : FVec Ideal S50000x128 .f32) = Cert.KernelIdeal.Net.aggregate (F := Ideal) x0 x1 := rfl

/-- The reference's node array after the first round. -/
theorem hidden_eq (x0 : FVec Ideal S50000x128 .f32) (x1 : IVec S2x800000 32) (x2 : FVec Ideal S128x128 .f32) (x3 : FVec Ideal S128 .f32)
    (x4 : FVec Ideal S128x128 .f32) (x5 : FVec Ideal S128 .f32) :
    Read.val_main_v24 (F := Ideal) x0 x1 x2 x3 x4 x5 = Cert.KernelIdeal.Net.firstRound x0 x1 x2 x3 x4 x5 := by
  have h : Read.val_main_v24 (F := Ideal) x0 x1 x2 x3 x4 x5
      = hostDense (hostDense (addf x0 (Read.val_main_v13 (F := Ideal) x0 x1)) x2 x3) x4 x5 := rfl
  rw [h, agg1_eq, hostRound_eq]
  rfl

/-- The reference's aggregate of that array is the shared aggregate function of it. -/
theorem agg2_eq (x0 : FVec Ideal S50000x128 .f32) (x1 : IVec S2x800000 32) (x2 : FVec Ideal S128x128 .f32) (x3 : FVec Ideal S128 .f32)
    (x4 : FVec Ideal S128x128 .f32) (x5 : FVec Ideal S128 .f32) :
    (Read.val_main_v34 (F := Ideal) x0 x1 x2 x3 x4 x5 : FVec Ideal S50000x128 .f32)
      = Cert.KernelIdeal.Net.aggregate (F := Ideal) (Read.val_main_v24 (F := Ideal) x0 x1 x2 x3 x4 x5) x1 := rfl

/-- The reference's node array after the second round. -/
theorem second_eq (x0 : FVec Ideal S50000x128 .f32) (x1 : IVec S2x800000 32) (x2 : FVec Ideal S128x128 .f32) (x3 : FVec Ideal S128 .f32)
    (x4 : FVec Ideal S128x128 .f32) (x5 : FVec Ideal S128 .f32)
    (x6 : FVec Ideal S128x128 .f32) (x7 : FVec Ideal S128 .f32) (x8 : FVec Ideal S128x128 .f32) (x9 : FVec Ideal S128 .f32) :
    Read.val_main_v45 (F := Ideal) x0 x1 x2 x3 x4 x5 x6 x7 x8 x9
      = arr2 (ginConv (cur (Cert.KernelIdeal.Net.firstRound x0 x1 x2 x3 x4 x5))
          (cur (Cert.KernelIdeal.Net.aggregate (Cert.KernelIdeal.Net.firstRound x0 x1 x2 x3 x4 x5) x1))
          (cur x6) (cur1 x7) (cur x8) (cur1 x9)) := by
  have h : Read.val_main_v45 (F := Ideal) x0 x1 x2 x3 x4 x5 x6 x7 x8 x9
      = hostDense (hostDense (addf (Read.val_main_v24 (F := Ideal) x0 x1 x2 x3 x4 x5)
          (Read.val_main_v34 (F := Ideal) x0 x1 x2 x3 x4 x5)) x6 x7) x8 x9 := rfl
  rw [h, agg2_eq, hidden_eq, hostRound_eq]

/-- THE REFERENCE'S RESULT is the network of its twelve arguments. -/
theorem result_eq (x0 : FVec Ideal S50000x128 .f32) (x1 : IVec S2x800000 32) (x2 : FVec Ideal S128x128 .f32) (x3 : FVec Ideal S128 .f32)
    (x4 : FVec Ideal S128x128 .f32) (x5 : FVec Ideal S128 .f32) (x6 : FVec Ideal S128x128 .f32) (x7 : FVec Ideal S128 .f32)
    (x8 : FVec Ideal S128x128 .f32) (x9 : FVec Ideal S128 .f32) (x10 : FVec Ideal S128x1 .f32) (x11 : FVec Ideal S1 .f32) :
    Read.val_main_v55 (F := Ideal) x0 x1 x2 x3 x4 x5 x6 x7 x8 x9 x10 x11 = Cert.KernelIdeal.Net.net x0 x1 x2 x3 x4 x5 x6 x7 x8 x9 x10 x11 := by
  funext i
  obtain ⟨r, q, rfl⟩ : ∃ (r : Fin 50000) (q : Fin 1), i = ix2 r q := ⟨i 0, i 1, eq_ix2 i⟩
  obtain rfl : q = 0 := Subsingleton.elim _ _
  have hlin : addf
      (Host.dotGeneral dot_S50000x128_S128x1_S50000x1_1_0_0_1_n_n none (Read.val_main_v45 (F := Ideal) x0 x1 x2 x3 x4 x5 x6 x7 x8 x9) x10)
      (broadcastInDim S50000x1 ![0, 1] bcast_S1x1_S50000x1_0_1 (broadcastInDim S1x1 ![1] bcast_S1_S1x1_1 x11))
      (ix2 r (0 : Fin 1))
        = (∑ n : Fin 128, Read.val_main_v45 (F := Ideal) x0 x1 x2 x3 x4 x5 x6 x7 x8 x9 (ix2 r n) * x10 (ix2 n (0 : Fin 1)))
          + x11 (ix1 (0 : Fin 1)) :=
    HostLayer.layer_apply (E := 50000) (N := 128) (Q := 1) dot_S50000x128_S128x1_S50000x1_1_0_0_1_n_n.wf
      (Read.val_main_v45 (F := Ideal) x0 x1 x2 x3 x4 x5 x6 x7 x8 x9) x10 x11 bcast_S1_S1x1_1 bcast_S1x1_S50000x1_0_1 r (0 : Fin 1)
  have h : Read.val_main_v55 (F := Ideal) x0 x1 x2 x3 x4 x5 x6 x7 x8 x9 x10 x11 (ix2 r (0 : Fin 1))
      = Ideal.div (Ideal.ofBits .f32 0x3F800000#32) (Ideal.ofBits .f32 0x3F800000#32 + Ideal.exp (-(addf
          (Host.dotGeneral dot_S50000x128_S128x1_S50000x1_1_0_0_1_n_n none (Read.val_main_v45 (F := Ideal) x0 x1 x2 x3 x4 x5 x6 x7 x8 x9) x10)
          (broadcastInDim S50000x1 ![0, 1] bcast_S1x1_S50000x1_0_1 (broadcastInDim S1x1 ![1] bcast_S1_S1x1_1 x11))
          (ix2 r (0 : Fin 1))))) := rfl
  rw [h, hlin, Ideal.ofBits_one_f32, second_eq]
  rfl

end Cert.ReferenceIdeal.RefValue

end
-- ==== Proof.lean ====
/-
  A graph network of two aggregation rounds and a logistic read-out: the Pallas program against the plain jnp one.

  Both programs compute, for 50000 nodes of 128 features and 800000 edges, twice: the aggregate of the node rows along
  the edges (a gather of the source rows and a scatter-add at the destination rows, on the host in both programs), the
  node rows plus their aggregate through two dense layers each clamped at zero; and then one more dense layer with a
  single output column and the logistic function. The Pallas program does the dense part in two kernels, each over ten
  blocks of 5000 consecutive rows, with the weights cast to a narrower float format; the jnp program does it with whole
  matrix products on the host and spells the logistic function as 1 / (1 + e^(−z)).

  Over the extended reals the narrower format reads the same, a matrix product into a zero accumulator and the host's
  product are the same plain sum of products, the two spellings of the logistic function are one function, and a dense
  layer of a row reads that row only, so processing the rows in blocks changes nothing: both programs end with the one
  function `Net.net` of the twelve arguments in the result buffer (`KernelValue`, `RefValue`). No law of arithmetic
  beyond congruence is needed, and so the finiteness of the inputs is never used. The rewriting pass changed no
  operation, so the idealized kernel program is the kernel program's own text and `preserves` asks nothing.
-/
import proofs.«131484_j25202868093368_1_alg».proof.Defs
import proofs.«131484_j25202868093368_1_alg».proof.Proof.Gen.Kernel
import proofs.«131484_j25202868093368_1_alg».proof.Proof.Gen.Kernel.Frame
import proofs.«131484_j25202868093368_1_alg».proof.Proof.Gen.KernelIdeal
import proofs.«131484_j25202868093368_1_alg».proof.Proof.Gen.KernelIdeal.Frame
import proofs.«131484_j25202868093368_1_alg».proof.Proof.Gen.ReferenceIdeal
import proofs.«131484_j25202868093368_1_alg».proof.Proof.Gen.ReferenceIdeal.Run
import proofs.«131484_j25202868093368_1_alg».proof.Proof.Gen.ReferenceIdeal.Read
import proofs.«131484_j25202868093368_1_alg».proof.Proof.Gen.Pre_finite_inputs
import proofs.«131484_j25202868093368_1_alg».proof.Proof.KernelValue
import proofs.«131484_j25202868093368_1_alg».proof.Proof.RefValue
import Idealize.ShloMosaic.Adequacy
import Idealize.ShloMosaic.Init

noncomputable section

namespace Cert.Proof

open Idealize.ShloMosaic Idealize.SL.Sem

/-- The three programs run to the end from any memory and leave their arguments as launched. -/
theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten. -/
theorem preserves : Cert.preserves_Kernel_KernelIdeal := trivial

/-- From memories that agree on the twelve arguments both programs end with the network of those arguments in their
    result buffers. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11⟩ := hagree c
  refine (Cert.ReferenceIdeal.Read.val_main_v55_eq m' c).trans
    ((Cert.ReferenceIdeal.RefValue.result_eq _ _ _ _ _ _ _ _ _ _ _ _).trans ?_)
  rw [a0, a1, a2, a3, a4, a5, a6, a7, a8, a9, a10, a11]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
